-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S64x4096 : Shape := ⟨2, ![64, 4096]⟩
abbrev S64 : Shape := ⟨1, ![64]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S16384x4096 .f32) (main_arg1 : IVec S64x4096 32) (main_arg2 : FVec F S64 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  main_v8
-- ==== Kernel.lean ====
abbrev S16384x4096 : Shape := ⟨2, ![16384, 4096]⟩
abbrev S64x4096 : Shape := ⟨2, ![64, 4096]⟩
abbrev S64 : Shape := ⟨1, ![64]⟩
abbrev S64x1 : Shape := ⟨2, ![64, 1]⟩
abbrev S4096x64 : Shape := ⟨2, ![4096, 64]⟩
abbrev S16384x64 : Shape := ⟨2, ![16384, 64]⟩
abbrev S512x4096 : Shape := ⟨2, ![512, 4096]⟩
abbrev S512x64 : Shape := ⟨2, ![512, 64]⟩

abbrev nBuf : Space → Nat
  | .hbm => 10
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S64x4096, .i32⟩
  | .hbm, ⟨2, _⟩ => ⟨S64, .f32⟩
  | .hbm, ⟨3, _⟩ => ⟨S64x4096, .f32⟩
  | .hbm, ⟨4, _⟩ => ⟨S64x1, .f32⟩
  | .hbm, ⟨5, _⟩ => ⟨S64x4096, .f32⟩
  | .hbm, ⟨6, _⟩ => ⟨S64x4096, .f32⟩
  | .hbm, ⟨7, _⟩ => ⟨S64x4096, .bf16⟩
  | .hbm, ⟨8, _⟩ => ⟨S4096x64, .bf16⟩
  | .hbm, ⟨9, _⟩ => ⟨S16384x64, .f32⟩
  | .local _ .vmem, ⟨0, _⟩ => ⟨S512x4096, .f32⟩
  | .local _ .vmem, ⟨1, _⟩ => ⟨S512x4096, .f32⟩
  | .local _ .vmem, ⟨2, _⟩ => ⟨S4096x64, .bf16⟩
  | .local _ .vmem, ⟨3, _⟩ => ⟨S512x64, .f32⟩
  | .local _ .vmem, ⟨4, _⟩ => ⟨S512x64, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S64_S64x1_0 : S64.BroadcastsInDim S64x1 (![0] : Fin 1 → Fin S64x1.rank)
  bcast_S64x1_S64x4096_0_1 : S64x1.BroadcastsInDim S64x4096 (![0, 1] : Fin 2 → Fin S64x4096.rank)
  bitsLt_bf16_f32 : FTy.bits .bf16 < FTy.bits .f32
  transposes_S64x4096_S4096x64_1_0 : S64x4096.Transposes [1, 0] S4096x64
  inb_S512x4096_S512x4096_0_0 : ∀ a, (![0, 0] : Fin 2 → Nat) a + S512x4096.size a ≤ S512x4096.size a
  h_S512x4096 : 0 < S512x4096.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S512x64_S512x64_0_0 : ∀ a, (![0, 0] : Fin 2 → Nat) a + S512x64.size a ≤ S512x64.size a
  h_S512x64 : 0 < S512x64.numel
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .bf16 = 32 ∨ (Rect.block (s := S4096x64) S4096x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S16384x64.size a
  hwx0_2 : ∀ i : grid0.Coords, EltTy.bits .f32 = 32 ∨ (Rect.block (s := S16384x64) S512x64.size (cc0_transform_2 i) (hinb0_2 i)).WholeWords (EltTy.packing .f32)

variable [Facts₀]

def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S64x4096 : Shape := ⟨2, ![64, 4096]⟩
abbrev S64 : Shape := ⟨1, ![64]⟩
abbrev S64x1 : Shape := ⟨2, ![64, 1]⟩
abbrev S16384x64 : Shape := ⟨2, ![16384, 64]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S64x4096, .i32⟩
  | .hbm, ⟨2, _⟩ => ⟨S64, .f32⟩
  | .hbm, ⟨3, _⟩ => ⟨S64x4096, .f32⟩
  | .hbm, ⟨4, _⟩ => ⟨S64x1, .f32⟩
  | .hbm, ⟨5, _⟩ => ⟨S64x4096, .f32⟩
  | .hbm, ⟨6, _⟩ => ⟨S64x4096, .f32⟩
  | .hbm, ⟨7, _⟩ => ⟨S16384x64, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S64_S64x1_0 : S64.BroadcastsInDim S64x1 (![0] : Fin 1 → Fin S64x1.rank)
  bcast_S64x1_S64x4096_0_1 : S64x1.BroadcastsInDim S64x4096 (![0, 1] : Fin 2 → Fin S64x4096.rank)
  dot_S16384x4096_S64x4096_S16384x64_1_1_0_0_n_n_wf : DotDims.WF S16384x4096 S64x4096 S16384x64 [1] [1] [0] [0] [] []

variable [Facts₀]

def dot_S16384x4096_S64x4096_S16384x64_1_1_0_0_n_n : DotDims S16384x4096 S64x4096 S16384x64 where
  lhsContracting := [1]
  rhsContracting := [1]
  lhsNonContracting := [0]
  rhsNonContracting := [0]
  lhsBatch := []
  rhsBatch := []
  wf := dot_S16384x4096_S64x4096_S16384x64_1_1_0_0_n_n_wf

class Facts : Prop extends Facts₀ where

variable [Facts]
-- ==== Proof.Spec.lean ====
/-
  The router's logits as one function of the three argument arrays.

  A token row `x[t, ·]` (4096 reals) is scored against 64 experts. Expert `e` owns a row of integer weights
  `w[e, ·]` and one scale `s[e]`; its dequantized weight at hidden position `h` is `float(w[e, h]) · s[e]`, and
  the logit of token `t` for expert `e` is the inner product

      logits[t, e] = Σ_h x[t, h] · (float(w[e, h]) · s[e]).

  Both programs compute exactly this sum over the extended reals: they differ only in where the dequantized
  table is laid out (one of them transposes it first) and in how the 16384 token rows are cut into tiles, and
  neither changes a single summand or the set of summands. No algebraic law beyond reading each array
  operation at an index is used, so finiteness of the inputs is never needed.
-/
import Idealize.ShloMosaic.PureOps.Ideal
import Idealize.ShloMosaic.PureOps.Ideal.Laws
import Idealize.ShloMosaic.Lib.ValueIdx
import Idealize.ShloMosaic.Lib.Pipeline.Value

noncomputable section

namespace Cert.Router

open Idealize.ShloMosaic Idealize.ShloMosaic.ValueIdx

/-- Tokens × hidden, experts × hidden, experts, experts × 1, hidden × experts, tokens × experts. -/
abbrev TokHid : Shape := ⟨2, ![16384, 4096]⟩
abbrev ExpHid : Shape := ⟨2, ![64, 4096]⟩
abbrev Exp : Shape := ⟨1, ![64]⟩
abbrev ExpCol : Shape := ⟨2, ![64, 1]⟩
abbrev HidExp : Shape := ⟨2, ![4096, 64]⟩
abbrev TokExp : Shape := ⟨2, ![16384, 64]⟩

/-- The dequantized weight table, experts × hidden: the integer weight made a real, times its expert's scale. -/
def dequant (w : IVec ExpHid 32) (s : FVec Ideal Exp .f32) : ExpHid.Idx → EReal :=
  fun i => FloatOps.sitofp (F := Ideal) .f32 (w i) * s (ix1 (i 0))

/-- The logits, tokens × experts: the token's row against the expert's dequantized row, summed over hidden. -/
def logits (x : FVec Ideal TokHid .f32) (w : IVec ExpHid 32) (s : FVec Ideal Exp .f32) : TokExp.Idx → EReal :=
  fun i => ∑ h : Fin 4096, x (ix2 (i 0) h) * dequant w s (ix2 (i 1) h)

/-- The array program that builds the table — scales made a column, the column spread along hidden, multiplied
    into the converted weights — read at an index, is `dequant`: a broadcast reads its operand at the
    coordinates it keeps, and the product is pointwise. -/
theorem dequant_eq (h1 : Exp.BroadcastsInDim ExpCol (![0] : Fin 1 → Fin ExpCol.rank))
    (h2 : ExpCol.BroadcastsInDim ExpHid (![0, 1] : Fin 2 → Fin ExpHid.rank))
    (w : IVec ExpHid 32) (s : FVec Ideal Exp .f32) :
    mulf (sitofp .f32 w : FVec Ideal ExpHid .f32) (broadcastInDim ExpHid ![0, 1] h2 (broadcastInDim ExpCol ![0] h1 s))
      = dequant w s := by
  funext i
  have e2 : broadcastInDim ExpHid ![0, 1] h2 (broadcastInDim ExpCol ![0] h1 s) i
      = broadcastInDim ExpCol ![0] h1 s (ix2 (i 0) (0 : Fin 1)) :=
    broadcastInDim_apply _ h2 _ i _ (fun a => match a with
      | ⟨0, _⟩ => by show (i 0).val = if (64 : Nat) = 1 then 0 else (i 0).val; rw [if_neg (by decide)]
      | ⟨1, _⟩ => by show 0 = if (1 : Nat) = 1 then 0 else (i 1).val; rw [if_pos rfl])
  have e1 : broadcastInDim ExpCol ![0] h1 s (ix2 (i 0) (0 : Fin 1)) = s (ix1 (i 0)) :=
    broadcastInDim_apply _ h1 s _ _ (fun a => match a with
      | ⟨0, _⟩ => by show (i 0).val = if (64 : Nat) = 1 then 0 else (i 0).val; rw [if_neg (by decide)])
  show FloatOps.sitofp (F := Ideal) .f32 (w i) * _ = _
  rw [e2, e1]
  rfl

end Cert.Router

end
-- ==== Proof.Tile.lean ====
/-
  One tile of the kernel: 512 token rows against the whole hidden × experts table.

  The body converts its 512 × 4096 block of tokens to the narrow format (the identity on extended reals), takes the
  4096 × 64 table as it is, and multiplies them into a zero accumulator. Read at row `p` and expert `q` of the
  tile, the product is the plain inner product over the hidden axis: the contraction has one axis, so its index
  is a number below 4096, the left operand is read at (p, k) and the right at (k, q).
-/
import proofs.«180809_j21182778703899_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Tile

open Cert.KernelIdeal Cert.KernelIdeal.Gen Idealize.ShloMosaic Idealize.ShloMosaic.ValueIdx

/-- The left operand's row coordinate is the output's row. -/
theorem lhs_row (j : S512x64.Idx) (q : dot_S512x4096_S4096x64_S512x64_1_0_0_1_n_n.contr.Idx) :
    (dot_S512x4096_S4096x64_S512x64_1_0_0_1_n_n.lhsIdx j q 0).val = (j 0).val := by
  unfold DotDims.lhsIdx
  rw [dif_neg (show ¬(0 : Fin S512x4096.rank) ∈ dot_S512x4096_S4096x64_S512x64_1_0_0_1_n_n.lhsBatch by decide),
    dif_pos (show (0 : Fin S512x4096.rank) ∈ dot_S512x4096_S4096x64_S512x64_1_0_0_1_n_n.lhsNonContracting by decide)]
  rfl

/-- Its column coordinate is the contraction index. -/
theorem lhs_col (j : S512x64.Idx) (q : dot_S512x4096_S4096x64_S512x64_1_0_0_1_n_n.contr.Idx) :
    (dot_S512x4096_S4096x64_S512x64_1_0_0_1_n_n.lhsIdx j q 1).val = (q ⟨0, by decide⟩).val :=
  dot_S512x4096_S4096x64_S512x64_1_0_0_1_n_n.lhsIdx_val_of_single rfl j q

/-- The right operand's row coordinate is the contraction index. -/
theorem rhs_row (j : S512x64.Idx) (q : dot_S512x4096_S4096x64_S512x64_1_0_0_1_n_n.contr.Idx) :
    (dot_S512x4096_S4096x64_S512x64_1_0_0_1_n_n.rhsIdx j q 0).val = (q ⟨0, by decide⟩).val :=
  dot_S512x4096_S4096x64_S512x64_1_0_0_1_n_n.rhsIdx_val_of_single rfl j q

/-- Its column coordinate is the output's column. -/
theorem rhs_col (j : S512x64.Idx) (q : dot_S512x4096_S4096x64_S512x64_1_0_0_1_n_n.contr.Idx) :
    (dot_S512x4096_S4096x64_S512x64_1_0_0_1_n_n.rhsIdx j q 1).val = (j 1).val := by
  unfold DotDims.rhsIdx
  rw [dif_neg (show ¬(1 : Fin S4096x64.rank) ∈ dot_S512x4096_S4096x64_S512x64_1_0_0_1_n_n.rhsBatch by decide),
    dif_pos (show (1 : Fin S4096x64.rank) ∈ dot_S512x4096_S4096x64_S512x64_1_0_0_1_n_n.rhsNonContracting by decide)]
  rfl

/-- The tile's product at row `j 0`, expert `j 1`: the inner product over hidden of the token block's row and the
    table's column. -/
theorem tile_apply (x0 : Vec Ideal S512x4096 .f32) (x1 : Vec Ideal S4096x64 .bf16) (j : S512x64.Idx) :
    k0_pay1 (F := Ideal) x0 x1 j = ∑ k : Fin 4096, x0 (ix2 (j 0) k) * x1 (ix2 k (j 1)) := by
  unfold k0_pay1
  rw [shapeCast_self]
  simp only [matmul]
  rw [Ideal.matmul_constant_zero_apply,
    ← Equiv.sum_comp (contrEquiv1 dot_S512x4096_S4096x64_S512x64_1_0_0_1_n_n 4096 rfl rfl).symm]
  refine Finset.sum_congr rfl fun k _ => ?_
  have hk := contrEquiv1_symm_val dot_S512x4096_S4096x64_S512x64_1_0_0_1_n_n 4096 rfl rfl k
  have el : dot_S512x4096_S4096x64_S512x64_1_0_0_1_n_n.lhsIdx j
      ((contrEquiv1 dot_S512x4096_S4096x64_S512x64_1_0_0_1_n_n 4096 rfl rfl).symm k) = ix2 (j 0) k :=
    funext fun a => Fin.ext (by
      match a with
      | ⟨0, _⟩ => exact lhs_row _ _
      | ⟨1, _⟩ => exact (lhs_col _ _).trans hk)
  have er : dot_S512x4096_S4096x64_S512x64_1_0_0_1_n_n.rhsIdx j
      ((contrEquiv1 dot_S512x4096_S4096x64_S512x64_1_0_0_1_n_n 4096 rfl rfl).symm k) = ix2 k (j 1) :=
    funext fun a => Fin.ext (by
      match a with
      | ⟨0, _⟩ => exact (rhs_row _ _).trans hk
      | ⟨1, _⟩ => exact rhs_col _ _)
  rw [el, er]
  rfl

end Cert.KernelIdeal.Tile

end
-- ==== Proof.Table.lean ====
/-
  The table the kernel's region finds: hidden × experts.

  Before the region the program converts the integer weights, spreads each expert's scale along its row,
  multiplies, narrows the format (the identity on extended reals) and transposes. So the array the second
  window stages holds, at hidden position `h` and expert `e`, the dequantized weight of expert `e` at `h`:
  a transpose reads its operand with the two coordinates exchanged.
-/
import proofs.«180809_j21182778703899_2_alg».proof.Proof.Gen.KernelIdeal.Frame
import proofs.«180809_j21182778703899_2_alg».proof.Proof.Spec
import Idealize.ShloMosaic.Lib.StableHlo.Run

noncomputable section

namespace Cert.KernelIdeal.Table

open Cert.KernelIdeal Cert.KernelIdeal.Gen Idealize.ShloMosaic Idealize.ShloMosaic.TcCoe Idealize.SL.Sem
open Idealize.ShloMosaic.StableHlo Idealize.ShloMosaic.ValueIdx Cert.Router

variable (m : (ℓ : Loc nD τ sig) → Buf (Elt Ideal) ℓ)

/-- The staged table as the host operations' composed term of the launch contents of the weights and scales. -/
theorem table_term (c : Dev nD) :
    (V m c main_v5 : S4096x64.Idx → EReal)
      = transpose S4096x64 [1, 0]
          (truncf .bf16
            (mulf (sitofp .f32 (m ((c : Thread nD τ).loc main_arg1)) : FVec Ideal S64x4096 .f32)
              (broadcastInDim S64x4096 ![0, 1] bcast_S64x1_S64x4096_0_1
                (broadcastInDim S64x1 ![0] bcast_S64_S64x1_0 (m ((c : Thread nD τ).loc main_arg2)))))
            bitsLt_bf16_f32)
          transposes_S64x4096_S4096x64_1_0 := by
  dsimp only [Gen.V, Gen.hostOps0]
  after_results

/-- Read at (hidden `y 0`, expert `y 1`): that expert's dequantized weight at that hidden position. -/
theorem table_apply (c : Dev nD) (y : S4096x64.Idx) :
    (V m c main_v5 : S4096x64.Idx → EReal) y
      = dequant (m ((c : Thread nD τ).loc main_arg1)) (m ((c : Thread nD τ).loc main_arg2)) (ix2 (y 1) (y 0)) := by
  refine (congrFun (table_term m c) y).trans ?_
  refine (transpose_apply [1, 0] _ transposes_S64x4096_S4096x64_1_0 y (ix2 (y 1) (y 0)) (fun b => match b with
    | ⟨0, _⟩ => rfl
    | ⟨1, _⟩ => rfl)).trans ?_
  exact congrFun (dequant_eq bcast_S64_S64x1_0 bcast_S64x1_S64x4096_0_1 _ _) _

end Cert.KernelIdeal.Table

end
-- ==== Proof.Whole.lean ====
/-
  From the 32 tiles to the whole result array.

  Grid point `t` stages rows `512·t … 512·t + 511` of the tokens, the whole hidden × experts table (the same
  block at every point), and writes back rows `512·t … 512·t + 511` of the result. So what point `t` writes is
  the restriction of ONE whole-array function — the logits of the launch contents — to its block: the token row
  the tile reads at local row `p` is global row `512·t + p`, which is also the result row it writes. The 32 blocks
  tile the 16384 rows (row `r` lies in the block of point `r / 512`), so the array ends holding the logits
  everywhere.
-/
import proofs.«180809_j21182778703899_2_alg».proof.Proof.Gen.KernelIdeal.Value
import proofs.«180809_j21182778703899_2_alg».proof.Proof.Spec
import proofs.«180809_j21182778703899_2_alg».proof.Proof.Tile
import proofs.«180809_j21182778703899_2_alg».proof.Proof.Table

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Router

variable (m : (ℓ : Loc nD τ sig) → Buf (Elt Ideal) ℓ) (ρ : Dev nD → PrngReg)

theorem zero_off : (![0, 0] : Fin 2 → Nat) = fun _ => 0 := funext fun a => by fin_cases a <;> rfl

/-- The three index maps over the 32 grid points: the token window moves down the rows with the result window
    and never along hidden; the table window never moves; the result window never moves along experts. -/
theorem index_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 31 :=
  (by decide +kernel : ∀ t : Fin grid0.N, _)

/-- Every one of the 32 row blocks is some grid point's. -/
theorem index_onto : ∀ q : Fin 32, ∃ t : Fin cfg0.N, win0_2.index t = ![q.val, 0] :=
  (by decide +kernel : ∀ q : Fin 32, ∃ t : Fin grid0.N, win0_2.index t = ![q.val, 0])

/-- What point `t` writes back is block `t` of the logits of the launch contents. -/
theorem flushed_eq (c : Dev nD) (t : Fin cfg0.N) :
    (dats m 0 c).flushed 2 t = ((cfg0.win 2).blk t).view.read (Elt Ideal)
      (logits (m ((c : Thread nD τ).loc main_arg0)) (m ((c : Thread nD τ).loc main_arg1)) (m ((c : Thread nD τ).loc main_arg2))) := by
  rw [Value.flushed2]
  unfold out0_2
  rw [View.canon_unit_zero zero_off]
  simp only [View.ld_unit_zero (S := S512x4096) zero_off, View.ld_unit_zero (S := S4096x64) zero_off]
  obtain ⟨e0, e1, e2, e3, e4, e5⟩ := index_facts t
  funext j
  show k0_pay1 (F := Ideal) (iblk m c 0 t) (iblk m c 1 t) j
    = logits (m ((c : Thread nD τ).loc main_arg0)) (m ((c : Thread nD τ).loc main_arg1)) (m ((c : Thread nD τ).loc main_arg2))
        (((cfg0.win 2).blk t).view.emb j)
  refine (Tile.tile_apply _ _ j).trans ?_
  unfold logits
  refine Finset.sum_congr rfl fun k _ => ?_
  -- the token block's row `j 0` is the array's row `512·t + j 0`, the result row written
  have h0 : iblk m c 0 t (ix2 (j 0) k)
      = m ((c : Thread nD τ).loc main_arg0) (ix2 ((((cfg0.win 2).blk t).view.emb j) 0) k) := by
    show V m c main_arg0 (((cfg0.win 0).blk t).view.emb (ix2 (j 0) k)) = _
    refine (congrFun (V_main_arg0 m c) _).trans (congrArg _ (funext fun a => Fin.ext ?_))
    match a with
    | ⟨0, _⟩ =>
      show win0_0.index t (0 : Fin 2) * 512 + 1 * (j 0).val = win0_2.index t (0 : Fin 2) * 512 + 1 * (j 0).val
      omega
    | ⟨1, _⟩ =>
      show win0_0.index t (1 : Fin 2) * 4096 + 1 * k.val = k.val
      omega
  -- the table block is the whole table: its entry (k, j 1) is expert `j 1`'s dequantized weight at `k`
  have h1 : iblk m c 1 t (ix2 k (j 1))
      = dequant (m ((c : Thread nD τ).loc main_arg1)) (m ((c : Thread nD τ).loc main_arg2))
          (ix2 ((((cfg0.win 2).blk t).view.emb j) 1) k) := by
    show (V m c main_v5 : S4096x64.Idx → EReal) (((cfg0.win 1).blk t).view.emb (ix2 k (j 1))) = _
    refine (Table.table_apply m c _).trans (congrArg _ (funext fun a => Fin.ext ?_))
    match a with
    | ⟨0, _⟩ =>
      show win0_1.index t (1 : Fin 2) * 64 + 1 * (j 1).val = win0_2.index t (1 : Fin 2) * 64 + 1 * (j 1).val
      omega
    | ⟨1, _⟩ =>
      show win0_1.index t (0 : Fin 2) * 4096 + 1 * k.val = k.val
      omega
  rw [h0, h1]

/-- An index of the result is in point `t`'s block iff each coordinate is in the block's range on its axis. -/
theorem mem_blk (t : Fin cfg0.N) (i : S16384x64.Idx) :
    i ∈ ((cfg0.win 2).blk t).view.set ↔ ∀ a : Fin 2, win0_2.index t a * S512x64.size a ≤ (i a).val
      ∧ (i a).val < win0_2.index t a * S512x64.size a + S512x64.size a := by
  show i ∈ ((View.whole main_v6).slice (win0_2.rect t)).set ↔ _
  rw [View.set_slice_whole, Rect.mem_set_unit]
  exact Iff.rfl

/-- Row `r` of the result lies in the block of the point whose row block is `r / 512`. -/
theorem cover (i : S16384x64.Idx) :
    ∃ t : Fin cfg0.N, (cfg0.win 2).flush t = true ∧ i ∈ ((cfg0.win 2).blk t).view.set := by
  have hi0 : (i 0).val < 16384 := (i 0).isLt
  have hi1 : (i 1).val < 64 := (i 1).isLt
  obtain ⟨t, ht⟩ := index_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 64 ≤ (i 1).val ∧ (i 1).val < win0_2.index t (1 : Fin 2) * 64 + 64
    omega

/-- The result array after the run is the logits of the launch contents. -/
theorem final (c : Dev nD) : (dats m 0 c).arrAt 2 cfg0.N
    = logits (m ((c : Thread nD τ).loc main_arg0)) (m ((c : Thread nD τ).loc main_arg1)) (m ((c : Thread nD τ).loc main_arg2)) :=
  (dats m 0 c).arrAt_eq_of_cover 2 _ (fun t _ => flushed_eq m c t) cover

/-- The kernel's run: it terminates with the result at the logits and the three arguments unchanged. -/
theorem run : θ_run defs (onTc (τ := τ) (main (F := Ideal))) ⟨m, fun _ => 0, ρ⟩ fun r => ∀ c : Dev nD,
      r.2.mem ((c : Thread nD τ).loc main_v6)
        = logits (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.Reference.lean ====
/-
  The reference computes the logits.

  Its last operation contracts the hidden axis of the tokens (axis 1) with the hidden axis of the dequantized
  table (axis 1 as well: the table is experts × hidden, not transposed). Read at token `t` and expert `e` it is the
  sum over `h` of `x[t, h]` times the table at `(e, h)`, and the table at `(e, h)` is the converted weight times the
  scale read through two broadcasts, which keep the expert coordinate and drop the hidden one.
-/
import proofs.«180809_j21182778703899_2_alg».proof.Proof.Gen.ReferenceIdeal.Read
import proofs.«180809_j21182778703899_2_alg».proof.Proof.Spec

noncomputable section

namespace Cert.ReferenceIdeal.RefValue

open Cert.ReferenceIdeal Cert.ReferenceIdeal.Gen Idealize.ShloMosaic Idealize.ShloMosaic.ValueIdx Cert.Router

/-- The reference's result, as the generated stage reads it, is `logits` of the three arguments. -/
theorem result_eq (x0 : (⟨S16384x4096, .f32⟩ : BufTy).Contents (Elt Ideal)) (x1 : (⟨S64x4096, .i32⟩ : BufTy).Contents (Elt Ideal))
    (x2 : (⟨S64, .f32⟩ : BufTy).Contents (Elt Ideal)) :
    Read.val_main_v4 (F := Ideal) x0 x1 x2 = logits x0 x1 x2 := by
  funext i
  rw [Read.val_main_v4_apply]
  refine Finset.sum_congr rfl fun k _ => ?_
  rw [Read.val_main_v3_apply, Read.val_main_v0_apply, Read.val_main_v2_apply, Read.val_main_v1_apply]
  have el : Read.lidx_main_v4 i k = ix2 (i 0) k :=
    funext fun a => by match a with | ⟨0, _⟩ => rfl | ⟨1, _⟩ => rfl
  have er : Read.ridx_main_v4 i k = ix2 (i 1) k :=
    funext fun a => by match a with | ⟨0, _⟩ => rfl | ⟨1, _⟩ => rfl
  have es : Read.idx_main_v1 (Read.idx_main_v2 (ix2 (i 1) k)) = ix1 (i 1) :=
    funext fun a => by match a with | ⟨0, _⟩ => rfl
  rw [el, er, es]
  rfl

end Cert.ReferenceIdeal.RefValue

end
-- ==== Proof.lean ====
/-
  A router for a mixture of experts: every one of 16384 tokens (4096 reals each) is scored against 64 experts whose
  weights are stored as integers with one real scale per expert. Both programs dequantize the weight table
  (`float(w[e, h]) · s[e]`) and take the inner product of each token with each expert's row; over the extended
  reals both therefore produce

      logits[t, e] = Σ_h x[t, h] · (float(w[e, h]) · s[e])        (Proof/Spec.lean).

  The reference contracts the tokens with the experts × hidden table directly (Proof/Reference.lean). The kernel
  first transposes the table to hidden × experts (Proof/Table.lean), then walks the tokens in 32 tiles of 512 rows, each
  tile one matrix product into a zero accumulator (Proof/Tile.lean); the 32 written blocks are the restrictions of
  the one logits array to consecutive row ranges and together fill it (Proof/Whole.lean). The changes of float
  format on the kernel's side are the identity on extended reals, and no step reorders, regroups or distributes
  anything: the two results are the same sum term by term, so the finiteness of the inputs is not used.

  The three programs terminate with their arguments unchanged (the frames); the idealized kernel is the kernel's own
  text read over the extended reals, so there is nothing to preserve beyond that.
-/
import proofs.«180809_j21182778703899_2_alg».proof.Defs
import proofs.«180809_j21182778703899_2_alg».proof.Proof.Gen.Kernel
import proofs.«180809_j21182778703899_2_alg».proof.Proof.Gen.Kernel.Skeleton
import proofs.«180809_j21182778703899_2_alg».proof.Proof.Gen.Kernel.Launch
import proofs.«180809_j21182778703899_2_alg».proof.Proof.Gen.Kernel.Points
import proofs.«180809_j21182778703899_2_alg».proof.Proof.Gen.Kernel.Frame
import proofs.«180809_j21182778703899_2_alg».proof.Proof.Gen.KernelIdeal
import proofs.«180809_j21182778703899_2_alg».proof.Proof.Gen.KernelIdeal.Skeleton
import proofs.«180809_j21182778703899_2_alg».proof.Proof.Gen.KernelIdeal.Launch
import proofs.«180809_j21182778703899_2_alg».proof.Proof.Gen.KernelIdeal.Points
import proofs.«180809_j21182778703899_2_alg».proof.Proof.Gen.KernelIdeal.Frame
import proofs.«180809_j21182778703899_2_alg».proof.Proof.Gen.ReferenceIdeal
import proofs.«180809_j21182778703899_2_alg».proof.Proof.Gen.KernelIdeal.Value
import proofs.«180809_j21182778703899_2_alg».proof.Proof.Gen.ReferenceIdeal.Run
import proofs.«180809_j21182778703899_2_alg».proof.Proof.Gen.ReferenceIdeal.Read
import proofs.«180809_j21182778703899_2_alg».proof.Proof.Gen.Pre_finite_inputs
import proofs.«180809_j21182778703899_2_alg».proof.Proof.Whole
import proofs.«180809_j21182778703899_2_alg».proof.Proof.Reference
import Idealize.ShloMosaic.Adequacy
import Idealize.ShloMosaic.Init

noncomputable section

namespace Cert.Proof

open Idealize.ShloMosaic Idealize.SL.Sem

/-- The kernel as printed terminates, faults nowhere and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on tokens, weights and scales, the kernel's result array and the reference's both end at
    the logits of those three arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
